-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50x64 : Shape := ⟨2, ![50, 64]⟩
abbrev S50000x1 : Shape := ⟨2, ![50000, 1]⟩
abbrev S50 : Shape := ⟨1, ![50]⟩
abbrev S50x1 : Shape := ⟨2, ![50, 1]⟩

abbrev nBuf : Space → Nat
  | .hbm => 126
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000, .i32⟩
  | .hbm, ⟨10, _⟩ => ⟨S1x50000, .i32⟩
  | .hbm, ⟨11, _⟩ => ⟨S1x50000, .i32⟩
  | .hbm, ⟨12, _⟩ => ⟨S2x50000, .i32⟩
  | .hbm, ⟨13, _⟩ => ⟨S2x850000, .i32⟩
  | .hbm, ⟨14, _⟩ => ⟨S1x850000, .i32⟩
  | .hbm, ⟨15, _⟩ => ⟨S850000, .i32⟩
  | .hbm, ⟨16, _⟩ => ⟨S1x850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x64, .f32⟩
  | .hbm, ⟨100, _⟩ => ⟨S850000x1, .f32⟩
  | .hbm, ⟨101, _⟩ => ⟨S850000x64, .f32⟩
  | .hbm, ⟨102, _⟩ => ⟨S850000x64, .f32⟩
  | .hbm, ⟨103, _⟩ => ⟨S_, .f32⟩
  | .hbm, ⟨104, _⟩ => ⟨S50000x64, .f32⟩
  | .hbm, ⟨105, _⟩ => ⟨S850000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50x64, .f32⟩
  | .hbm, ⟨112, _⟩ => ⟨S50000x1, .i32⟩
  | .hbm, ⟨113, _⟩ => ⟨S50x64, .f32⟩
  | .hbm, ⟨114, _⟩ => ⟨S_, .f32⟩
  | .hbm, ⟨115, _⟩ => ⟨S50000, .f32⟩
  | .hbm, ⟨116, _⟩ => ⟨S_, .f32⟩
  | .hbm, ⟨117, _⟩ => ⟨S50, .f32⟩
  | .hbm, ⟨118, _⟩ => ⟨S50000x1, .i32⟩
  | .hbm, ⟨119, _⟩ => ⟨S50, .f32⟩
  | .hbm, ⟨120, _⟩ => ⟨S_, .f32⟩
  | .hbm, ⟨121, _⟩ => ⟨S50, .f32⟩
  | .hbm, ⟨122, _⟩ => ⟨S50, .f32⟩
  | .hbm, ⟨123, _⟩ => ⟨S50x1, .f32⟩
  | .hbm, ⟨124, _⟩ => ⟨S50x64, .f32⟩
  | .hbm, ⟨125, _⟩ => ⟨S50x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_v66 : Ref sig .tc := ⟨.hbm, 92, rfl⟩
abbrev main_v67 : Ref sig .tc := ⟨.hbm, 93, rfl⟩
abbrev main_c_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  bcast_S_S50x64 : S_.BroadcastsInDim S50x64 (![] : Fin 0 → Fin S50x64.rank)
  bcast_S50000_S50000x1_0 : S50000.BroadcastsInDim S50000x1 (![0] : Fin 1 → Fin S50000x1.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50x64 : Shape := ⟨2, ![50, 64]⟩
abbrev S50000x1 : Shape := ⟨2, ![50000, 1]⟩
abbrev S50 : Shape := ⟨1, ![50]⟩
abbrev S50x1 : Shape := ⟨2, ![50, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000, .i32⟩
  | .hbm, ⟨10, _⟩ => ⟨S1x50000, .i32⟩
  | .hbm, ⟨11, _⟩ => ⟨S1x50000, .i32⟩
  | .hbm, ⟨12, _⟩ => ⟨S2x50000, .i32⟩
  | .hbm, ⟨13, _⟩ => ⟨S2x850000, .i32⟩
  | .hbm, ⟨14, _⟩ => ⟨S1x850000, .i32⟩
  | .hbm, ⟨15, _⟩ => ⟨S850000, .i32⟩
  | .hbm, ⟨16, _⟩ => ⟨S1x850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x64, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x64, .f32⟩
  | .hbm, ⟨100, _⟩ => ⟨S850000x1, .f32⟩
  | .hbm, ⟨101, _⟩ => ⟨S850000x64, .f32⟩
  | .hbm, ⟨102, _⟩ => ⟨S850000x64, .f32⟩
  | .hbm, ⟨103, _⟩ => ⟨S_, .f32⟩
  | .hbm, ⟨104, _⟩ => ⟨S50000x64, .f32⟩
  | .hbm, ⟨105, _⟩ => ⟨S850000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50x64, .f32⟩
  | .hbm, ⟨112, _⟩ => ⟨S50000x1, .i32⟩
  | .hbm, ⟨113, _⟩ => ⟨S50x64, .f32⟩
  | .hbm, ⟨114, _⟩ => ⟨S_, .f32⟩
  | .hbm, ⟨115, _⟩ => ⟨S50000, .f32⟩
  | .hbm, ⟨116, _⟩ => ⟨S_, .f32⟩
  | .hbm, ⟨117, _⟩ => ⟨S50, .f32⟩
  | .hbm, ⟨118, _⟩ => ⟨S50000x1, .i32⟩
  | .hbm, ⟨119, _⟩ => ⟨S50, .f32⟩
  | .hbm, ⟨120, _⟩ => ⟨S_, .f32⟩
  | .hbm, ⟨121, _⟩ => ⟨S50, .f32⟩
  | .hbm, ⟨122, _⟩ => ⟨S50, .f32⟩
  | .hbm, ⟨123, _⟩ => ⟨S50x1, .f32⟩
  | .hbm, ⟨124, _⟩ => ⟨S50x64, .f32⟩
  | .hbm, ⟨125, _⟩ => ⟨S50x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_v66 : Ref sig .tc := ⟨.hbm, 92, rfl⟩
abbrev main_v67 : Ref sig .tc := ⟨.hbm, 93, rfl⟩
abbrev main_c_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50x64 : S_.BroadcastsInDim S50x64 (![] : Fin 0 → Fin S50x64.rank)
  bcast_S50000_S50000x1_0 : S50000.BroadcastsInDim S50000x1 (![0] : Fin 1 → Fin S50000x1.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S50x64_S50000x1_S50000x64_1_0_0_1_wf : ScatterDims.WF S50x64 S50000x1 S50000x64 [1] [0] [0] 1
  scatter_S50_S50000x1_S50000_n_0_0_1_wf : ScatterDims.WF S50 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S50x64_S50000x1_S50000x64_1_0_0_1 : ScatterDims S50x64 S50000x1 S50000x64 where
  updateWindowDims := [1]
  insertedWindowDims := [0]
  scatterDimsToOperandDims := [0]
  indexVectorDim := 1
  wf := scatter_S50x64_S50000x1_S50000x64_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf

class Facts : Prop extends Facts₀ where

variable [Facts]
-- ==== Proof.KernelRun.lean ====
/-
  The whole program's run with its RESULT named.

  The program is nine stretches in a row: host operations, the first blocked linear layer, host operations (the edge
  aggregation, the bias, the rectifier), the second linear layer, host operations again, the third linear layer, and
  the closing host operations (aggregation, bias, the per-graph mean). The contents of every buffer at each boundary
  are a fold from the launch memory; the last boundary's contents are what every terminating execution ends with.
  Here the run is stated once more with the result buffer read at that last boundary, beside the unchanged arguments.
-/
import proofs.«172042_j50371376447812_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the nine argument arrays as launched. -/
theorem run : θ_run defs (onTc (τ := τ) (main (F := F))) ⟨m, fun _ => 0, ρ⟩ (fun r => ∀ c : Dev nD,
      r.2.mem ((c.tc : Thread nD τ).loc main_v93) = W9 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v93 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.MatmulBlock.lean ====
/-
  One grid point of the node-blocked linear layer, read entry by entry on the extended reals.

  The body of each of the three launches loads a block of 5000 rows of the activations (5000×64) and the whole
  weight matrix (64×64), changes both to a narrower float format (the identity on the extended reals), and stores
  their matrix product into a zero accumulator. Entry (p, q) of what it stores is therefore the plain sum
  ∑ₖ x(p, k) · w(k, q) over the 64 columns of the block's row p and the 64 rows of the weights' column q.
  The second and third launches first pass the block through a shape cast onto its own shape, which changes nothing.
-/
import proofs.«172042_j50371376447812_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Idealize.ShloMosaic Cert.KernelIdeal Cert.KernelIdeal.Gen

/-- Entry (row of `j`, `k`) of a block of activations. -/
abbrev rowAt (j : S5000x64.Idx) (k : Fin 64) : S5000x64.Idx := fun a => match a with
  | ⟨0, _⟩ => ⟨(j 0).val, (j 0).isLt⟩
  | ⟨1, _⟩ => ⟨k.val, k.isLt⟩

/-- Entry (`k`, column of `j`) of the weights. -/
abbrev colAt (j : S5000x64.Idx) (k : Fin 64) : S64x64.Idx := fun a => match a with
  | ⟨0, _⟩ => ⟨k.val, k.isLt⟩
  | ⟨1, _⟩ => ⟨(j 1).val, (j 1).isLt⟩

theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into a zero accumulator, at an entry: the sum over the contracted axis. -/
theorem product_apply (l : FVec Ideal S5000x64 .bf16) (r : FVec Ideal S64x64 .bf16) (j : S5000x64.Idx) :
    FloatOps.matmul dot_S5000x64_S64x64_S5000x64_1_0_0_1_n_n none l r (constant (F := Ideal) S5000x64 .f32 0x00000000#32) j
      = ∑ k : Fin 64, l (rowAt j k) * r (colAt j k) := by
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j
      ((ValueIdx.contrEquiv1 dot_S5000x64_S64x64_S5000x64_1_0_0_1_n_n 64 rfl rfl).symm k) = rowAt j k :=
    funext fun a => Fin.ext (by
      match a with
      | ⟨0, _⟩ => exact lhs_row _ _
      | ⟨1, _⟩ => exact (lhs_col _ _).trans hk)
  have er : dot_S5000x64_S64x64_S5000x64_1_0_0_1_n_n.rhsIdx j
      ((ValueIdx.contrEquiv1 dot_S5000x64_S64x64_S5000x64_1_0_0_1_n_n 64 rfl rfl).symm k) = colAt j k :=
    funext fun a => Fin.ext (by
      match a with
      | ⟨0, _⟩ => exact (rhs_row _ _).trans hk
      | ⟨1, _⟩ => exact rhs_col _ _)
  rw [el, er]

/-- What the first launch's body stores, at an entry. -/
theorem pay0_apply (x : Vec Ideal S5000x64 .f32) (w : Vec Ideal S64x64 .f32) (j : S5000x64.Idx) :
    k0_pay1 (F := Ideal) x w j = ∑ k : Fin 64, x (rowAt j k) * w (colAt j k) := by
  unfold k0_pay1
  exact product_apply _ _ j

/-- What the second launch's body stores, at an entry. -/
theorem pay1_apply (x : Vec Ideal S5000x64 .f32) (w : Vec Ideal S64x64 .f32) (j : S5000x64.Idx) :
    k1_pay1 (F := Ideal) x w j = ∑ k : Fin 64, x (rowAt j k) * w (colAt j k) := by
  unfold k1_pay1
  rw [shapeCast_self]
  exact product_apply _ _ j

/-- What the third launch's body stores, at an entry. -/
theorem pay2_apply (x : Vec Ideal S5000x64 .f32) (w : Vec Ideal S64x64 .f32) (j : S5000x64.Idx) :
    k2_pay1 (F := Ideal) x w j = ∑ k : Fin 64, x (rowAt j k) * w (colAt j k) := by
  unfold k2_pay1
  rw [shapeCast_self]
  exact product_apply _ _ j

end Cert.KernelIdeal.Block

end
-- ==== Proof.Region0.lean ====
/-
  The first blocked linear layer as one function of the arrays it is entered with.

  The launch walks ten grid points; point t reads rows 5000·t … 5000·t + 4999 of the activations (all 64 columns)
  and the whole 64×64 weight matrix, and writes back the same rows of the output. Entry (p, q) of the block it
  writes is ∑ₖ x(5000·t + p, k) · w(k, q) (the body's product into a zero accumulator), which is entry
  (5000·t + p, q) of the product of the WHOLE arrays as the host's contraction over one axis spells it. The ten
  blocks tile the 50000 rows, so after the launch the output array is that whole product. The contents the launch is
  entered with are a parameter here: the statement is used at whatever the preceding host operations left.
-/
import proofs.«172042_j50371376447812_1_alg».proof.Proof.Gen.KernelIdeal.Frame
import proofs.«172042_j50371376447812_1_alg».proof.Proof.Gen.ReferenceIdeal.Read
import proofs.«172042_j50371376447812_1_alg».proof.Proof.MatmulBlock

set_option maxRecDepth 16384

noncomputable section

namespace Cert.KernelIdeal.Layer0

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole activations with the weights, as the host's contraction spells it. -/
abbrev product (X : (⟨S50000x64, .f32⟩ : BufTy).Contents (Elt Ideal)) (W : (⟨S64x64, .f32⟩ : BufTy).Contents (Elt Ideal)) :
    (⟨S50000x64, .f32⟩ : BufTy).Contents (Elt Ideal) :=
  Cert.ReferenceIdeal.Read.val_main_v29 (F := Ideal) X W

/-- The three index maps over the grid: the activations and the output move down one block of rows per point,
    the weights stay, no map moves along the columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Row p, column k of the block of activations at point t is row (block row of the output entry), column k of the
    array. -/
theorem act_index (t : Fin cfg0.N) (j : S5000x64.Idx) (k : Fin 64) :
    ((cfg0.win 0).blk t).view.emb (Block.rowAt j k)
      = Cert.ReferenceIdeal.Read.lidx_main_v29 (((cfg0.win 2).blk t).view.emb j) k := by
  obtain ⟨e0, e1, e2, e3, e4, e5, e6⟩ := idx_facts t
  funext a; apply Fin.ext
  match a with
  | ⟨0, _⟩ =>
    show win0_0.index t (0 : Fin 2) * 5000 + 1 * (j 0).val = win0_2.index t (0 : Fin 2) * 5000 + 1 * (j 0).val
    omega
  | ⟨1, _⟩ =>
    show win0_0.index t (1 : Fin 2) * 64 + 1 * k.val = k.val
    omega

/-- Row k of the weights' block is row k of the weights; the column is the output entry's. -/
theorem weight_index (t : Fin cfg0.N) (j : S5000x64.Idx) (k : Fin 64) :
    ((cfg0.win 1).blk t).view.emb (Block.colAt j k)
      = Cert.ReferenceIdeal.Read.ridx_main_v29 (((cfg0.win 2).blk t).view.emb j) k := by
  obtain ⟨e0, e1, e2, e3, e4, e5, e6⟩ := idx_facts t
  funext a; apply Fin.ext
  match a with
  | ⟨0, _⟩ =>
    show win0_1.index t (0 : Fin 2) * 64 + 1 * k.val = k.val
    omega
  | ⟨1, _⟩ =>
    show win0_1.index t (1 : Fin 2) * 64 + 1 * (j 1).val = win0_2.index t (1 : Fin 2) * 64 + 1 * (j 1).val
    omega

/-- What point t writes back is block t of the whole product. -/
theorem flushed_eq (c : Dev nD) (t : Fin cfg0.N) :
    (dat0 V c).flushed 2 t
      = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  show k0_pay1 (iblk0 V c 0 t) (iblk0 V c 1 t) j
    = Cert.ReferenceIdeal.Read.val_main_v29 (F := Ideal) (V c main_arg0) (V c main_arg3) (((cfg0.win 2).blk t).view.emb j)
  refine (Block.pay0_apply (iblk0 V c 0 t) (iblk0 V c 1 t) j).trans ?_
  refine Eq.trans ?_ (Cert.ReferenceIdeal.Read.val_main_v29_apply (V c main_arg0) (V c main_arg3) (((cfg0.win 2).blk t).view.emb j)).symm
  refine Finset.sum_congr rfl fun k _ => ?_
  have hx : iblk0 V c 0 t (Block.rowAt j k)
      = V c main_arg0 (Cert.ReferenceIdeal.Read.lidx_main_v29 (((cfg0.win 2).blk t).view.emb j) k) := by
    show V c main_arg0 (((cfg0.win 0).blk t).view.emb (Block.rowAt j k)) = _
    rw [act_index]
  have hw : iblk0 V c 1 t (Block.colAt j k)
      = V c main_arg3 (Cert.ReferenceIdeal.Read.ridx_main_v29 (((cfg0.win 2).blk t).view.emb j) k) := by
    show V c main_arg3 (((cfg0.win 1).blk t).view.emb (Block.colAt j k)) = _
    rw [weight_index]
  rw [hx, hw]

/-- An index of the output array is in point t's block iff its row is among the block's 5000 rows (and its column among
    all 64). -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- The ten blocks tile the rows: row r is in the block of point r / 5000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨e0, e1, e2, e3, e4, e5, e6⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    have e4' : win0_2.index ⟨(i 0).val / 5000, ht⟩ (0 : Fin 2) = (i 0).val / 5000 := e4
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    omega

/-- After the launch the output array holds the whole product of the activations and the weights it was entered with. -/
theorem final (c : Dev nD) : (dat0 V c).arrAt 2 cfg0.N = product (V c main_arg0) (V c main_arg3) :=
  (dat0 V c).arrAt_eq_of_cover 2 _ (fun t _ => flushed_eq V c t) cover

end Cert.KernelIdeal.Layer0

end
-- ==== Proof.Region1.lean ====
/-
  The second blocked linear layer as one function of the arrays it is entered with.

  The launch walks ten grid points; point t reads rows 5000·t … 5000·t + 4999 of the activations (all 64 columns)
  and the whole 64×64 weight matrix, and writes back the same rows of the output. Entry (p, q) of the block it
  writes is ∑ₖ x(5000·t + p, k) · w(k, q) (the body's product into a zero accumulator), which is entry
  (5000·t + p, q) of the product of the WHOLE arrays as the host's contraction over one axis spells it. The ten
  blocks tile the 50000 rows, so after the launch the output array is that whole product. The contents the launch is
  entered with are a parameter here: the statement is used at whatever the preceding host operations left.
-/
import proofs.«172042_j50371376447812_1_alg».proof.Proof.Gen.KernelIdeal.Frame
import proofs.«172042_j50371376447812_1_alg».proof.Proof.Gen.ReferenceIdeal.Read
import proofs.«172042_j50371376447812_1_alg».proof.Proof.MatmulBlock

set_option maxRecDepth 16384

noncomputable section

namespace Cert.KernelIdeal.Layer1

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole activations with the weights, as the host's contraction spells it. -/
abbrev product (X : (⟨S50000x64, .f32⟩ : BufTy).Contents (Elt Ideal)) (W : (⟨S64x64, .f32⟩ : BufTy).Contents (Elt Ideal)) :
    (⟨S50000x64, .f32⟩ : BufTy).Contents (Elt Ideal) :=
  Cert.ReferenceIdeal.Read.val_main_v29 (F := Ideal) X W

/-- The three index maps over the grid: the activations and the output move down one block of rows per point,
    the weights stay, no map moves along the columns. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Row p, column k of the block of activations at point t is row (block row of the output entry), column k of the
    array. -/
theorem act_index (t : Fin cfg1.N) (j : S5000x64.Idx) (k : Fin 64) :
    ((cfg1.win 0).blk t).view.emb (Block.rowAt j k)
      = Cert.ReferenceIdeal.Read.lidx_main_v29 (((cfg1.win 2).blk t).view.emb j) k := by
  obtain ⟨e0, e1, e2, e3, e4, e5, e6⟩ := idx_facts t
  funext a; apply Fin.ext
  match a with
  | ⟨0, _⟩ =>
    show win1_0.index t (0 : Fin 2) * 5000 + 1 * (j 0).val = win1_2.index t (0 : Fin 2) * 5000 + 1 * (j 0).val
    omega
  | ⟨1, _⟩ =>
    show win1_0.index t (1 : Fin 2) * 64 + 1 * k.val = k.val
    omega

/-- Row k of the weights' block is row k of the weights; the column is the output entry's. -/
theorem weight_index (t : Fin cfg1.N) (j : S5000x64.Idx) (k : Fin 64) :
    ((cfg1.win 1).blk t).view.emb (Block.colAt j k)
      = Cert.ReferenceIdeal.Read.ridx_main_v29 (((cfg1.win 2).blk t).view.emb j) k := by
  obtain ⟨e0, e1, e2, e3, e4, e5, e6⟩ := idx_facts t
  funext a; apply Fin.ext
  match a with
  | ⟨0, _⟩ =>
    show win1_1.index t (0 : Fin 2) * 64 + 1 * k.val = k.val
    omega
  | ⟨1, _⟩ =>
    show win1_1.index t (1 : Fin 2) * 64 + 1 * (j 1).val = win1_2.index t (1 : Fin 2) * 64 + 1 * (j 1).val
    omega

/-- What point t writes back is block t of the whole product. -/
theorem flushed_eq (c : Dev nD) (t : Fin cfg1.N) :
    (dat1 V c).flushed 2 t
      = ((cfg1.win 2).blk t).view.read (Elt Ideal) (product (V c main_v46) (V c main_arg5)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  funext j
  show k1_pay1 (iblk1 V c 0 t) (iblk1 V c 1 t) j
    = Cert.ReferenceIdeal.Read.val_main_v29 (F := Ideal) (V c main_v46) (V c main_arg5) (((cfg1.win 2).blk t).view.emb j)
  refine (Block.pay1_apply (iblk1 V c 0 t) (iblk1 V c 1 t) j).trans ?_
  refine Eq.trans ?_ (Cert.ReferenceIdeal.Read.val_main_v29_apply (V c main_v46) (V c main_arg5) (((cfg1.win 2).blk t).view.emb j)).symm
  refine Finset.sum_congr rfl fun k _ => ?_
  have hx : iblk1 V c 0 t (Block.rowAt j k)
      = V c main_v46 (Cert.ReferenceIdeal.Read.lidx_main_v29 (((cfg1.win 2).blk t).view.emb j) k) := by
    show V c main_v46 (((cfg1.win 0).blk t).view.emb (Block.rowAt j k)) = _
    rw [act_index]
  have hw : iblk1 V c 1 t (Block.colAt j k)
      = V c main_arg5 (Cert.ReferenceIdeal.Read.ridx_main_v29 (((cfg1.win 2).blk t).view.emb j) k) := by
    show V c main_arg5 (((cfg1.win 1).blk t).view.emb (Block.colAt j k)) = _
    rw [weight_index]
  rw [hx, hw]

/-- An index of the output array is in point t's block iff its row is among the block's 5000 rows (and its column among
    all 64). -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The ten blocks tile the rows: row r is in the block of point r / 5000. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨e0, e1, e2, e3, e4, e5, e6⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    have e4' : win1_2.index ⟨(i 0).val / 5000, ht⟩ (0 : Fin 2) = (i 0).val / 5000 := e4
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- After the launch the output array holds the whole product of the activations and the weights it was entered with. -/
theorem final (c : Dev nD) : (dat1 V c).arrAt 2 cfg1.N = product (V c main_v46) (V c main_arg5) :=
  (dat1 V c).arrAt_eq_of_cover 2 _ (fun t _ => flushed_eq V c t) cover

end Cert.KernelIdeal.Layer1

end
-- ==== Proof.Region2.lean ====
/-
  The third blocked linear layer as one function of the arrays it is entered with.

  The launch walks ten grid points; point t reads rows 5000·t … 5000·t + 4999 of the activations (all 64 columns)
  and the whole 64×64 weight matrix, and writes back the same rows of the output. Entry (p, q) of the block it
  writes is ∑ₖ x(5000·t + p, k) · w(k, q) (the body's product into a zero accumulator), which is entry
  (5000·t + p, q) of the product of the WHOLE arrays as the host's contraction over one axis spells it. The ten
  blocks tile the 50000 rows, so after the launch the output array is that whole product. The contents the launch is
  entered with are a parameter here: the statement is used at whatever the preceding host operations left.
-/
import proofs.«172042_j50371376447812_1_alg».proof.Proof.Gen.KernelIdeal.Frame
import proofs.«172042_j50371376447812_1_alg».proof.Proof.Gen.ReferenceIdeal.Read
import proofs.«172042_j50371376447812_1_alg».proof.Proof.MatmulBlock

set_option maxRecDepth 16384

noncomputable section

namespace Cert.KernelIdeal.Layer2

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole activations with the weights, as the host's contraction spells it. -/
abbrev product (X : (⟨S50000x64, .f32⟩ : BufTy).Contents (Elt Ideal)) (W : (⟨S64x64, .f32⟩ : BufTy).Contents (Elt Ideal)) :
    (⟨S50000x64, .f32⟩ : BufTy).Contents (Elt Ideal) :=
  Cert.ReferenceIdeal.Read.val_main_v29 (F := Ideal) X W

/-- The three index maps over the grid: the activations and the output move down one block of rows per point,
    the weights stay, no map moves along the columns. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Row p, column k of the block of activations at point t is row (block row of the output entry), column k of the
    array. -/
theorem act_index (t : Fin cfg2.N) (j : S5000x64.Idx) (k : Fin 64) :
    ((cfg2.win 0).blk t).view.emb (Block.rowAt j k)
      = Cert.ReferenceIdeal.Read.lidx_main_v29 (((cfg2.win 2).blk t).view.emb j) k := by
  obtain ⟨e0, e1, e2, e3, e4, e5, e6⟩ := idx_facts t
  funext a; apply Fin.ext
  match a with
  | ⟨0, _⟩ =>
    show win2_0.index t (0 : Fin 2) * 5000 + 1 * (j 0).val = win2_2.index t (0 : Fin 2) * 5000 + 1 * (j 0).val
    omega
  | ⟨1, _⟩ =>
    show win2_0.index t (1 : Fin 2) * 64 + 1 * k.val = k.val
    omega

/-- Row k of the weights' block is row k of the weights; the column is the output entry's. -/
theorem weight_index (t : Fin cfg2.N) (j : S5000x64.Idx) (k : Fin 64) :
    ((cfg2.win 1).blk t).view.emb (Block.colAt j k)
      = Cert.ReferenceIdeal.Read.ridx_main_v29 (((cfg2.win 2).blk t).view.emb j) k := by
  obtain ⟨e0, e1, e2, e3, e4, e5, e6⟩ := idx_facts t
  funext a; apply Fin.ext
  match a with
  | ⟨0, _⟩ =>
    show win2_1.index t (0 : Fin 2) * 64 + 1 * k.val = k.val
    omega
  | ⟨1, _⟩ =>
    show win2_1.index t (1 : Fin 2) * 64 + 1 * (j 1).val = win2_2.index t (1 : Fin 2) * 64 + 1 * (j 1).val
    omega

/-- What point t writes back is block t of the whole product. -/
theorem flushed_eq (c : Dev nD) (t : Fin cfg2.N) :
    (dat2 V c).flushed 2 t
      = ((cfg2.win 2).blk t).view.read (Elt Ideal) (product (V c main_v64) (V c main_arg7)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext j
  show k2_pay1 (iblk2 V c 0 t) (iblk2 V c 1 t) j
    = Cert.ReferenceIdeal.Read.val_main_v29 (F := Ideal) (V c main_v64) (V c main_arg7) (((cfg2.win 2).blk t).view.emb j)
  refine (Block.pay2_apply (iblk2 V c 0 t) (iblk2 V c 1 t) j).trans ?_
  refine Eq.trans ?_ (Cert.ReferenceIdeal.Read.val_main_v29_apply (V c main_v64) (V c main_arg7) (((cfg2.win 2).blk t).view.emb j)).symm
  refine Finset.sum_congr rfl fun k _ => ?_
  have hx : iblk2 V c 0 t (Block.rowAt j k)
      = V c main_v64 (Cert.ReferenceIdeal.Read.lidx_main_v29 (((cfg2.win 2).blk t).view.emb j) k) := by
    show V c main_v64 (((cfg2.win 0).blk t).view.emb (Block.rowAt j k)) = _
    rw [act_index]
  have hw : iblk2 V c 1 t (Block.colAt j k)
      = V c main_arg7 (Cert.ReferenceIdeal.Read.ridx_main_v29 (((cfg2.win 2).blk t).view.emb j) k) := by
    show V c main_arg7 (((cfg2.win 1).blk t).view.emb (Block.colAt j k)) = _
    rw [weight_index]
  rw [hx, hw]

/-- An index of the output array is in point t's block iff its row is among the block's 5000 rows (and its column among
    all 64). -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v65).slice (win2_2.rect t)).set ↔ _
  rw [View.set_slice_whole, Rect.mem_set_unit]
  exact Iff.rfl

/-- The ten blocks tile the rows: row r is in the block of point r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨e0, e1, e2, e3, e4, e5, e6⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    have e4' : win2_2.index ⟨(i 0).val / 5000, ht⟩ (0 : Fin 2) = (i 0).val / 5000 := e4
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    omega

/-- After the launch the output array holds the whole product of the activations and the weights it was entered with. -/
theorem final (c : Dev nD) : (dat2 V c).arrAt 2 cfg2.N = product (V c main_v64) (V c main_arg7) :=
  (dat2 V c).arrAt_eq_of_cover 2 _ (fun t _ => flushed_eq V c t) cover

end Cert.KernelIdeal.Layer2

end
-- ==== Proof.KernelValue.lean ====
/-
  The result buffer at the last boundary, as a function of the nine arguments.

  Walking the boundaries forward from the launch: the first host stretch builds, from the edge list alone, the source
  and destination indices (the given edges followed by one self loop per node) and the symmetric normalisation
  deg^(-1/2)[src] · deg^(-1/2)[dst]; these three arrays and the arguments are never written again, so every later
  boundary still holds them. Each linear layer leaves the whole product of the activations it is entered with and its
  weights; each host stretch after a layer gathers the product's rows along the sources, scales by the normalisation,
  adds them up per destination, adds the bias and (after the first two layers) takes the maximum with zero; the last
  stretch averages the node rows per graph. Stage by stage these are the same operations, on the same operands, as the
  stages of the plain host program, whose own linear layers are contractions of whole arrays.
-/
import proofs.«172042_j50371376447812_1_alg».proof.Proof.Gen.KernelIdeal.Frame
import proofs.«172042_j50371376447812_1_alg».proof.Proof.Gen.ReferenceIdeal.Read
import proofs.«172042_j50371376447812_1_alg».proof.Proof.Region0
import proofs.«172042_j50371376447812_1_alg».proof.Proof.Region1
import proofs.«172042_j50371376447812_1_alg».proof.Proof.Region2
import Idealize.ShloMosaic.Lib.StableHlo.Run

set_option maxRecDepth 16384
set_option maxHeartbeats 1000000

noncomputable section

namespace Cert.KernelIdeal.Stages

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

/-! ## After the first host stretch: the indices, the normalisation, the arguments -/

theorem W1_v6 : W1 m ρ c (Proc.devRef .tc main_v6) = val_main_v6 (F := Ideal) (m ((c : Thread nD τ).loc main_arg1)) := by
  after_results_simp <;> rfl
theorem W1_v8 : W1 m ρ c (Proc.devRef .tc main_v8) = val_main_v8 (F := Ideal) (m ((c : Thread nD τ).loc main_arg1)) := by
  after_results_simp <;> rfl
theorem W1_v28 : W1 m ρ c (Proc.devRef .tc main_v28) = val_main_v28 (F := Ideal) (m ((c : Thread nD τ).loc main_arg1)) := by
  after_results_simp <;> rfl
theorem W1_arg0 : W1 m ρ c (Proc.devRef .tc main_arg0) = (m ((c : Thread nD τ).loc main_arg0)) := by
  after_results_simp <;> rfl
theorem W1_arg2 : W1 m ρ c (Proc.devRef .tc main_arg2) = (m ((c : Thread nD τ).loc main_arg2)) := by
  after_results_simp <;> rfl
theorem W1_arg3 : W1 m ρ c (Proc.devRef .tc main_arg3) = (m ((c : Thread nD τ).loc main_arg3)) := by
  after_results_simp <;> rfl
theorem W1_arg4 : W1 m ρ c (Proc.devRef .tc main_arg4) = (m ((c : Thread nD τ).loc main_arg4)) := by
  after_results_simp <;> rfl
theorem W1_arg5 : W1 m ρ c (Proc.devRef .tc main_arg5) = (m ((c : Thread nD τ).loc main_arg5)) := by
  after_results_simp <;> rfl
theorem W1_arg6 : W1 m ρ c (Proc.devRef .tc main_arg6) = (m ((c : Thread nD τ).loc main_arg6)) := by
  after_results_simp <;> rfl
theorem W1_arg7 : W1 m ρ c (Proc.devRef .tc main_arg7) = (m ((c : Thread nD τ).loc main_arg7)) := by
  after_results_simp <;> rfl
theorem W1_arg8 : W1 m ρ c (Proc.devRef .tc main_arg8) = (m ((c : Thread nD τ).loc main_arg8)) := by
  after_results_simp <;> rfl

/-! ## After the first linear layer -/

theorem W2_v6 : W2 m ρ c (Proc.devRef .tc main_v6) = val_main_v6 (F := Ideal) (m ((c : Thread nD τ).loc main_arg1)) :=
  (W2_of_ne m ρ c main_v6 (by decide)).trans (W1_v6 m ρ c)
theorem W2_v8 : W2 m ρ c (Proc.devRef .tc main_v8) = val_main_v8 (F := Ideal) (m ((c : Thread nD τ).loc main_arg1)) :=
  (W2_of_ne m ρ c main_v8 (by decide)).trans (W1_v8 m ρ c)
theorem W2_v28 : W2 m ρ c (Proc.devRef .tc main_v28) = val_main_v28 (F := Ideal) (m ((c : Thread nD τ).loc main_arg1)) :=
  (W2_of_ne m ρ c main_v28 (by decide)).trans (W1_v28 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_v29 : W2 m ρ c (Proc.devRef .tc main_v29) = val_main_v29 (F := Ideal) (m ((c : Thread nD τ).loc main_arg0)) (m ((c : Thread nD τ).loc main_arg3)) := by
  refine (W2_arr m ρ c 2).trans ?_
  rw [Layer0.final]
  show Layer0.product (W1 m ρ c (Proc.devRef .tc main_arg0)) (W1 m ρ c (Proc.devRef .tc main_arg3)) = _
  rw [W1_arg0, W1_arg3]

/-! ## After the first aggregation, bias and rectifier -/

theorem W4_v6 : W4 m ρ c (Proc.devRef .tc main_v6) = val_main_v6 (F := Ideal) (m ((c : Thread nD τ).loc main_arg1)) :=
  (by after_results_simp <;> rfl : W4 m ρ c (Proc.devRef .tc main_v6) = W2 m ρ c (Proc.devRef .tc main_v6)).trans (W2_v6 m ρ c)
theorem W4_v8 : W4 m ρ c (Proc.devRef .tc main_v8) = val_main_v8 (F := Ideal) (m ((c : Thread nD τ).loc main_arg1)) :=
  (by after_results_simp <;> rfl : W4 m ρ c (Proc.devRef .tc main_v8) = W2 m ρ c (Proc.devRef .tc main_v8)).trans (W2_v8 m ρ c)
theorem W4_v28 : W4 m ρ c (Proc.devRef .tc main_v28) = val_main_v28 (F := Ideal) (m ((c : Thread nD τ).loc main_arg1)) :=
  (by after_results_simp <;> rfl : W4 m ρ c (Proc.devRef .tc main_v28) = W2 m ρ c (Proc.devRef .tc main_v28)).trans (W2_v28 m ρ c)
theorem W4_arg2 : W4 m ρ c (Proc.devRef .tc main_arg2) = (m ((c : Thread nD τ).loc main_arg2)) :=
  (by after_results_simp <;> rfl : W4 m ρ c (Proc.devRef .tc main_arg2) = W2 m ρ c (Proc.devRef .tc main_arg2)).trans (W2_arg2 m ρ c)
theorem W4_arg5 : W4 m ρ c (Proc.devRef .tc main_arg5) = (m ((c : Thread nD τ).loc main_arg5)) :=
  (by after_results_simp <;> rfl : W4 m ρ c (Proc.devRef .tc main_arg5) = W2 m ρ c (Proc.devRef .tc main_arg5)).trans (W2_arg5 m ρ c)
theorem W4_arg6 : W4 m ρ c (Proc.devRef .tc main_arg6) = (m ((c : Thread nD τ).loc main_arg6)) :=
  (by after_results_simp <;> rfl : W4 m ρ c (Proc.devRef .tc main_arg6) = W2 m ρ c (Proc.devRef .tc main_arg6)).trans (W2_arg6 m ρ c)
theorem W4_arg7 : W4 m ρ c (Proc.devRef .tc main_arg7) = (m ((c : Thread nD τ).loc main_arg7)) :=
  (by after_results_simp <;> rfl : W4 m ρ c (Proc.devRef .tc main_arg7) = W2 m ρ c (Proc.devRef .tc main_arg7)).trans (W2_arg7 m ρ c)
theorem W4_arg8 : W4 m ρ c (Proc.devRef .tc main_arg8) = (m ((c : Thread nD τ).loc main_arg8)) :=
  (by after_results_simp <;> rfl : W4 m ρ c (Proc.devRef .tc main_arg8) = W2 m ρ c (Proc.devRef .tc main_arg8)).trans (W2_arg8 m ρ c)
theorem W4_v46 : W4 m ρ c (Proc.devRef .tc main_v46) = val_main_v46 (F := Ideal) (m ((c : Thread nD τ).loc main_arg0)) (m ((c : Thread nD τ).loc main_arg1)) (m ((c : Thread nD τ).loc main_arg3)) (m ((c : Thread nD τ).loc main_arg4)) := by
  after_results_simp
  rw [W2_v29, W2_v6, W2_v8, W2_v28, W2_arg4]
  unfold val_main_v46
  show maximumf _ _ = maximumf _ _
  congr 1

/-! ## After the second linear layer -/

theorem W5_v6 : W5 m ρ c (Proc.devRef .tc main_v6) = val_main_v6 (F := Ideal) (m ((c : Thread nD τ).loc main_arg1)) :=
  (W5_of_ne m ρ c main_v6 (by decide)).trans (W4_v6 m ρ c)
theorem W5_v8 : W5 m ρ c (Proc.devRef .tc main_v8) = val_main_v8 (F := Ideal) (m ((c : Thread nD τ).loc main_arg1)) :=
  (W5_of_ne m ρ c main_v8 (by decide)).trans (W4_v8 m ρ c)
theorem W5_v28 : W5 m ρ c (Proc.devRef .tc main_v28) = val_main_v28 (F := Ideal) (m ((c : Thread nD τ).loc main_arg1)) :=
  (W5_of_ne m ρ c main_v28 (by decide)).trans (W4_v28 m ρ c)
theorem W5_arg2 : W5 m ρ c (Proc.devRef .tc main_arg2) = (m ((c : Thread nD τ).loc main_arg2)) :=
  (W5_of_ne m ρ c main_arg2 (by decide)).trans (W4_arg2 m ρ c)
theorem W5_arg6 : W5 m ρ c (Proc.devRef .tc main_arg6) = (m ((c : Thread nD τ).loc main_arg6)) :=
  (W5_of_ne m ρ c main_arg6 (by decide)).trans (W4_arg6 m ρ c)
theorem W5_arg7 : W5 m ρ c (Proc.devRef .tc main_arg7) = (m ((c : Thread nD τ).loc main_arg7)) :=
  (W5_of_ne m ρ c main_arg7 (by decide)).trans (W4_arg7 m ρ c)
theorem W5_arg8 : W5 m ρ c (Proc.devRef .tc main_arg8) = (m ((c : Thread nD τ).loc main_arg8)) :=
  (W5_of_ne m ρ c main_arg8 (by decide)).trans (W4_arg8 m ρ c)
theorem W5_v47 : W5 m ρ c (Proc.devRef .tc main_v47) = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  rw [Layer1.final]
  show Layer1.product (W4 m ρ c (Proc.devRef .tc main_v46)) (W4 m ρ c (Proc.devRef .tc main_arg5)) = _
  rw [W4_v46, W4_arg5]
  rfl

/-! ## After the second aggregation, bias and rectifier -/

theorem W7_v6 : W7 m ρ c (Proc.devRef .tc main_v6) = val_main_v6 (F := Ideal) (m ((c : Thread nD τ).loc main_arg1)) :=
  (by after_results_simp <;> rfl : W7 m ρ c (Proc.devRef .tc main_v6) = W5 m ρ c (Proc.devRef .tc main_v6)).trans (W5_v6 m ρ c)
theorem W7_v8 : W7 m ρ c (Proc.devRef .tc main_v8) = val_main_v8 (F := Ideal) (m ((c : Thread nD τ).loc main_arg1)) :=
  (by after_results_simp <;> rfl : W7 m ρ c (Proc.devRef .tc main_v8) = W5 m ρ c (Proc.devRef .tc main_v8)).trans (W5_v8 m ρ c)
theorem W7_v28 : W7 m ρ c (Proc.devRef .tc main_v28) = val_main_v28 (F := Ideal) (m ((c : Thread nD τ).loc main_arg1)) :=
  (by after_results_simp <;> rfl : W7 m ρ c (Proc.devRef .tc main_v28) = W5 m ρ c (Proc.devRef .tc main_v28)).trans (W5_v28 m ρ c)
theorem W7_arg2 : W7 m ρ c (Proc.devRef .tc main_arg2) = (m ((c : Thread nD τ).loc main_arg2)) :=
  (by after_results_simp <;> rfl : W7 m ρ c (Proc.devRef .tc main_arg2) = W5 m ρ c (Proc.devRef .tc main_arg2)).trans (W5_arg2 m ρ c)
theorem W7_arg7 : W7 m ρ c (Proc.devRef .tc main_arg7) = (m ((c : Thread nD τ).loc main_arg7)) :=
  (by after_results_simp <;> rfl : W7 m ρ c (Proc.devRef .tc main_arg7) = W5 m ρ c (Proc.devRef .tc main_arg7)).trans (W5_arg7 m ρ c)
theorem W7_arg8 : W7 m ρ c (Proc.devRef .tc main_arg8) = (m ((c : Thread nD τ).loc main_arg8)) :=
  (by after_results_simp <;> rfl : W7 m ρ c (Proc.devRef .tc main_arg8) = W5 m ρ c (Proc.devRef .tc main_arg8)).trans (W5_arg8 m ρ c)
theorem W7_v64 : W7 m ρ c (Proc.devRef .tc main_v64) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  after_results_simp
  rw [W5_v47, W5_v6, W5_v8, W5_v28, W5_arg6]
  unfold val_main_v64
  show maximumf _ _ = maximumf _ _
  congr 1

/-! ## After the third linear layer -/

theorem W8_v6 : W8 m ρ c (Proc.devRef .tc main_v6) = val_main_v6 (F := Ideal) (m ((c : Thread nD τ).loc main_arg1)) :=
  (W8_of_ne m ρ c main_v6 (by decide)).trans (W7_v6 m ρ c)
theorem W8_v8 : W8 m ρ c (Proc.devRef .tc main_v8) = val_main_v8 (F := Ideal) (m ((c : Thread nD τ).loc main_arg1)) :=
  (W8_of_ne m ρ c main_v8 (by decide)).trans (W7_v8 m ρ c)
theorem W8_v28 : W8 m ρ c (Proc.devRef .tc main_v28) = val_main_v28 (F := Ideal) (m ((c : Thread nD τ).loc main_arg1)) :=
  (W8_of_ne m ρ c main_v28 (by decide)).trans (W7_v28 m ρ c)
theorem W8_arg2 : W8 m ρ c (Proc.devRef .tc main_arg2) = (m ((c : Thread nD τ).loc main_arg2)) :=
  (W8_of_ne m ρ c main_arg2 (by decide)).trans (W7_arg2 m ρ c)
theorem W8_arg8 : W8 m ρ c (Proc.devRef .tc main_arg8) = (m ((c : Thread nD τ).loc main_arg8)) :=
  (W8_of_ne m ρ c main_arg8 (by decide)).trans (W7_arg8 m ρ c)
theorem W8_v65 : W8 m ρ c (Proc.devRef .tc main_v65) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ?_
  rw [Layer2.final]
  show Layer2.product (W7 m ρ c (Proc.devRef .tc main_v64)) (W7 m ρ c (Proc.devRef .tc main_arg7)) = _
  rw [W7_v64, W7_arg7]
  rfl

/-! ## The result -/

/-- The result buffer at the last boundary is the plain host program's last stage at the same arguments. -/
theorem result : W9 m ρ c (Proc.devRef .tc main_v93) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  after_results_simp
  rw [W8_v65, W8_v6, W8_v8, W8_v28, W8_arg8, W8_arg2]
  unfold val_main_v93
  show Host.divf _ _ = Host.divf _ _
  congr 1

end Cert.KernelIdeal.Stages

end
-- ==== Proof.lean ====
/-
  A three-layer graph convolution with a per-graph mean, against its plain host spelling.

  Both programs compute, from node features x (50000×64), an edge list, graph ids and three weight/bias pairs,
      h₁ = relu(Â·(x·W₁) + b₁),  h₂ = relu(Â·(h₁·W₂) + b₂),  h₃ = Â·(h₂·W₃) + b₃,  out = per-graph mean of h₃,
  where Â is the edge aggregation with self loops and symmetric normalisation, spelt in both programs by the same
  gathers, scalings and scatter-additions. They differ only in how a dense product h·W is computed: the kernel
  launches a grid of ten points, each multiplying a block of 5000 rows by the whole weight matrix after changing both
  to a narrower float format, where the host program contracts the whole arrays at once. On the extended reals a
  change of float format is the identity and the product of a block of rows is the block of rows of the product, so
  each launch leaves exactly the host's contraction (Region0–2 over MatmulBlock), every later stage is applied to
  equal operands (KernelValue), and the two results are one function of the arguments. No algebraic law beyond this
  tiling is used, so the finiteness of the inputs is never opened.

  The three frames: the two kernel programs' are the generated frame certificates; the host program's is its
  generated run with the result dropped. The idealized kernel is the kernel's own text read on the extended reals
  (no rewrite was applied), so there is nothing to preserve.
-/
import proofs.«172042_j50371376447812_1_alg».proof.Defs
import proofs.«172042_j50371376447812_1_alg».proof.Proof.Gen.Kernel
import proofs.«172042_j50371376447812_1_alg».proof.Proof.Gen.Kernel.Skeleton
import proofs.«172042_j50371376447812_1_alg».proof.Proof.Gen.Kernel.Launch
import proofs.«172042_j50371376447812_1_alg».proof.Proof.Gen.Kernel.Points
import proofs.«172042_j50371376447812_1_alg».proof.Proof.Gen.Kernel.Frame
import proofs.«172042_j50371376447812_1_alg».proof.Proof.Gen.KernelIdeal
import proofs.«172042_j50371376447812_1_alg».proof.Proof.Gen.KernelIdeal.Skeleton
import proofs.«172042_j50371376447812_1_alg».proof.Proof.Gen.KernelIdeal.Launch
import proofs.«172042_j50371376447812_1_alg».proof.Proof.Gen.KernelIdeal.Points
import proofs.«172042_j50371376447812_1_alg».proof.Proof.Gen.KernelIdeal.Frame
import proofs.«172042_j50371376447812_1_alg».proof.Proof.Gen.ReferenceIdeal
import proofs.«172042_j50371376447812_1_alg».proof.Proof.Gen.Pre_finite_inputs
import proofs.«172042_j50371376447812_1_alg».proof.Proof.Gen.ReferenceIdeal.Run
import proofs.«172042_j50371376447812_1_alg».proof.Proof.Gen.ReferenceIdeal.Read
import proofs.«172042_j50371376447812_1_alg».proof.Proof.KernelRun
import proofs.«172042_j50371376447812_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the host program's last stage of the (agreeing) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v93),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v93_eq, h0, h1, h2, h3, h4, h5, h6, h7, h8]
  exact (Cert.KernelIdeal.Stages.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
